-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x16 .f32) (main_arg5 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S100000x16 : Shape := ⟨2, ![100000, 16]⟩
abbrev S10000x16 : Shape := ⟨2, ![10000, 16]⟩
abbrev S1700000x16 : Shape := ⟨2, ![1700000, 16]⟩
abbrev S1x16 : Shape := ⟨2, ![1, 16]⟩

abbrev nBuf : Space → Nat
  | .hbm => 85
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x16, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x16, .f32⟩
  | .hbm, ⟨75, _⟩ => ⟨S1700000x1, .f32⟩
  | .hbm, ⟨76, _⟩ => ⟨S1700000x16, .f32⟩
  | .hbm, ⟨77, _⟩ => ⟨S1700000x16, .f32⟩
  | .hbm, ⟨78, _⟩ => ⟨S_, .f32⟩
  | .hbm, ⟨79, _⟩ => ⟨S100000x16, .f32⟩
  | .hbm, ⟨80, _⟩ => ⟨S1700000x1, .i32⟩
  | .hbm, ⟨81, _⟩ => ⟨S100000x16, .f32⟩
  | .hbm, ⟨82, _⟩ => ⟨S1x16, .f32⟩
  | .hbm, ⟨83, _⟩ => ⟨S100000x16, .f32⟩
  | .hbm, ⟨84, _⟩ => ⟨S100000x16, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x16, .f32⟩
  | .local _ .vmem, ⟨13, _⟩ => ⟨S10000x16, .f32⟩
  | .local _ .vmem, ⟨14, _⟩ => ⟨S10000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x16_S64x16_0_0 : ∀ a, (![0, 0] : Fin 2 → Nat) a + S64x16.size a ≤ S64x16.size a
  h_S64x16 : 0 < S64x16.numel
  inb_S10000x16_S10000x16_0_0 : ∀ a, (![0, 0] : Fin 2 → Nat) a + S10000x16.size a ≤ S10000x16.size a
  h_S10000x16 : 0 < S10000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x16_S10000x16_1_0_0_1_n_n_wf : DotDims.WF S10000x64 S64x16 S10000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x16.size a ≤ S64x16.size a
  hwx2_1 : ∀ i : grid2.Coords, EltTy.bits .f32 = 32 ∨ (Rect.block (s := S64x16) S64x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S100000x16.size a
  hwx2_2 : ∀ i : grid2.Coords, EltTy.bits .f32 = 32 ∨ (Rect.block (s := S100000x16) S10000x16.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x16 : Shape := ⟨2, ![100000, 16]⟩
abbrev S1700000x16 : Shape := ⟨2, ![1700000, 16]⟩
abbrev S1x16 : Shape := ⟨2, ![1, 16]⟩

abbrev nBuf : Space → Nat
  | .hbm => 122
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x64, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x16, .f32⟩
  | .hbm, ⟨70, _⟩ => ⟨S_, .f32⟩
  | .hbm, ⟨71, _⟩ => ⟨S1700000, .f32⟩
  | .hbm, ⟨72, _⟩ => ⟨S_, .f32⟩
  | .hbm, ⟨73, _⟩ => ⟨S100000, .f32⟩
  | .hbm, ⟨74, _⟩ => ⟨S1700000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000, .f32⟩
  | .hbm, ⟨102, _⟩ => ⟨S1700000, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x16, .f32⟩
  | .hbm, ⟨112, _⟩ => ⟨S1700000x1, .f32⟩
  | .hbm, ⟨113, _⟩ => ⟨S1700000x16, .f32⟩
  | .hbm, ⟨114, _⟩ => ⟨S1700000x16, .f32⟩
  | .hbm, ⟨115, _⟩ => ⟨S_, .f32⟩
  | .hbm, ⟨116, _⟩ => ⟨S100000x16, .f32⟩
  | .hbm, ⟨117, _⟩ => ⟨S1700000x1, .i32⟩
  | .hbm, ⟨118, _⟩ => ⟨S100000x16, .f32⟩
  | .hbm, ⟨119, _⟩ => ⟨S1x16, .f32⟩
  | .hbm, ⟨120, _⟩ => ⟨S100000x16, .f32⟩
  | .hbm, ⟨121, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x16_S100000x16_1_0_0_1_n_n_wf : DotDims.WF S100000x64 S64x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.RunVal.lean ====
/-
  The idealized kernel's run with its result named.

  The program is eight segments: three stretches of host operations, the first dense layer as a pipelined region, a
  stretch of host operations, the activation region, the second dense layer's region, and a last stretch of host
  operations. The buffer contents at each boundary are a fold from the launch memory; the last boundary's contents
  at the result buffer is what every execution ends with, and the arguments end as launched.
-/
import proofs.«182111_j12240656794220_1_alg».proof.Proof.Gen.KernelIdeal.Frame

set_option maxRecDepth 16384

noncomputable section

namespace Cert.KernelIdeal.RunVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and every argument as launched. -/
theorem run : θ_run defs (onTc (τ := τ) (main (F := F))) ⟨m, fun _ => 0, ρ⟩ (fun r => ∀ c : Dev nD,
      r.2.mem ((c.tc : Thread nD τ).loc main_v62) = W8 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v62 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunVal

end
-- ==== Proof.LibCat.lean ====
/-
  Reading a concatenation of two or of three buffers back from a run of host operations: the result holds the
  operation's function of each operand's contents at that operand's own reference, so that the operands' contents can
  in turn be read back. (The family of operand references is literal; under the operation's binder it is not, and the
  contents of "the k-th operand" could not be rewritten further.)
-/
import Idealize.ShloMosaic.Lib.StableHlo.Run

noncomputable section

namespace Cert.Lib

open Idealize.ShloMosaic Idealize.ShloMosaic.StableHlo Idealize.SL.Sem

variable {τ : Topo} {sig : RefSig} {Val : EltTy → Type}

/-- A two-operand concatenation's result, each operand's contents at its own reference. -/
theorem nary2_result' {x a y : Ref sig .tc}
    (f : ((k : Fin 2) → ((![x, a] : Fin 2 → Ref sig .tc) k).ty.Contents Val) → y.ty.Contents Val) (hxs hy)
    (F : Valuation τ sig Val) :
    (nary (τ := τ) ![x, a] y f hxs hy).result F (no_index (Proc.devRef .tc y))
      = f (Fin.cons (F (Proc.devRef .tc x)) (Fin.cons (F (Proc.devRef .tc a)) (fun i => i.elim0))) := by
  rw [nary_result]; congr 1; funext k; fin_cases k <;> rfl

/-- A three-operand concatenation's result, each operand's contents at its own reference. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- Contents carried to a typed reference's buffer type and back are the contents. -/
theorem ofBuf_toBuf {T : BufTy} (x : TRef sig T) (v : T.Contents Val) : x.ofBuf (x.toBuf v) = v := by
  obtain ⟨r, h, h2, h3⟩ := x
  subst h
  rfl
/-- Contents carried from a typed reference's buffer type and back are the contents. -/
theorem toBuf_ofBuf {T : BufTy} (x : TRef sig T) (v : x.ref.ty.Contents Val) : x.toBuf (x.ofBuf v) = v := by
  obtain ⟨r, h, h2, h3⟩ := x
  subst h
  rfl

/-- Folding a list of host operations cut in two: first the head part, then the tail part from what it leaves. -/
theorem after_append (l1 l2 : List (HloOp τ sig Val)) (V : Valuation τ sig Val) :
    after (l1 ++ l2) V = after l2 (after l1 V) := by
  induction l1 generalizing V with
  | nil => rfl
  | cons op l ih => exact ih (op.result V)

/-- The same two facts in rewriting form. -/
theorem nary2_result {x a y : Ref sig .tc}
    (f : ((k : Fin 2) → ((![x, a] : Fin 2 → Ref sig .tc) k).ty.Contents Val) → y.ty.Contents Val) (hxs hy)
    (F : Valuation τ sig Val) :
    (nary (τ := τ) ![x, a] y f hxs hy).result F (Proc.devRef .tc y)
      = f (Fin.cons (F (Proc.devRef .tc x)) (Fin.cons (F (Proc.devRef .tc a)) (fun i => i.elim0))) :=
  nary2_result' f hxs hy F
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) :=
  nary3_result' f hxs hy F

end Cert.Lib

/-- The results of a literal list of host operations by one simp pass, two- and three-operand concatenations included. -/
macro "after_results_cat" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Cert.Lib.nary2_result', Cert.Lib.nary3_result', Idealize.ShloMosaic.StableHlo.nary4_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

/-- Goes on reading inside a concatenation's operands, one rewrite per operation (the one-pass form does not enter them). -/
macro "finish_results_rw" : tactic =>
  `(tactic| (repeat (first
      | rw [Idealize.ShloMosaic.StableHlo.nullary_result] | rw [Idealize.ShloMosaic.StableHlo.unary_result] | rw [Idealize.ShloMosaic.StableHlo.binary_result]
      | rw [Idealize.ShloMosaic.StableHlo.ternary_result] | rw [Idealize.ShloMosaic.StableHlo.quaternary_result] | rw [Idealize.ShloMosaic.StableHlo.reshape_result]
      | rw [Cert.Lib.nary2_result] | rw [Cert.Lib.nary3_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.quaternary_result_ne]; rotate_left; decide)
      | (rw [Idealize.ShloMosaic.StableHlo.reshape_result_ne]; rotate_left; decide)
      | (rw [Idealize.ShloMosaic.StableHlo.nary_result_ne]; rotate_left; decide))))

end
-- ==== Proof.HostPrefix.lean ====
/-
  The host operations before the first dense layer, read back.

  From the launch contents these stretches build the edge endpoints with a self-loop appended per node, the in-degree
  of every node as a scatter-add of ones, its inverse square root where the degree is positive and zero elsewhere, and
  the weight of every edge as the product of that value at its two endpoints. Each is the reference's stage of the same
  name applied to the edge-index argument; the float arguments are left as launched.
-/
import proofs.«182111_j12240656794220_1_alg».proof.Proof.Gen.KernelIdeal.Frame
import proofs.«182111_j12240656794220_1_alg».proof.Proof.RefRead
import Idealize.ShloMosaic.Lib.StableHlo.Run
import proofs.«182111_j12240656794220_1_alg».proof.Proof.LibCat

set_option maxRecDepth 16384

noncomputable section

namespace Cert.KernelIdeal.HostRead

open Cert.KernelIdeal Cert.KernelIdeal.Gen Cert.ReferenceIdeal.ReadP
open Idealize.ShloMosaic Idealize.ShloMosaic.TcCoe Idealize.SL.Sem Idealize.ShloMosaic.StableHlo

variable {F : FTy → Type} [FloatOps F]

variable (Wk : Valuation τ sig (Elt F))

/-- The buffer contents after the three stretches that precede the first region, from contents `Wk`. -/
abbrev pre : Valuation τ sig (Elt F) :=
  StableHlo.after (hostOps0_2 (F := F)) (StableHlo.after (hostOps0_1 (F := F)) (StableHlo.after (hostOps0 (F := F)) Wk))

set_option maxHeartbeats 4000000 in
/-- Source endpoints, self-loops appended. -/
theorem pre_v3 (x1 : (⟨S2x1600000, .i32⟩ : BufTy).Contents (Elt F)) (h1 : Wk (Proc.devRef .tc main_arg1) = x1) :
    pre Wk (Proc.devRef .tc main_v3) = val_main_v3 (F := F) x1 := by
  dsimp only [pre, hostOps0, hostOps0_1, hostOps0_2]
  after_results_simp
  finish_results_rw
  rw [h1]
  rfl

set_option maxHeartbeats 4000000 in
/-- Destination endpoints, self-loops appended. -/
theorem pre_v6 (x1 : (⟨S2x1600000, .i32⟩ : BufTy).Contents (Elt F)) (h1 : Wk (Proc.devRef .tc main_arg1) = x1) :
    pre Wk (Proc.devRef .tc main_v6) = val_main_v6 (F := F) x1 := by
  dsimp only [pre, hostOps0, hostOps0_1, hostOps0_2]
  after_results_simp
  finish_results_rw
  rw [h1]
  rfl

/-! ### The edge weights, stage by stage -/

set_option maxHeartbeats 4000000 in
/-- After the first stretch: source endpoints. -/
theorem p0_v3 (x1 : (⟨S2x1600000, .i32⟩ : BufTy).Contents (Elt F)) (h1 : Wk (Proc.devRef .tc main_arg1) = x1) :
    StableHlo.after (hostOps0 (F := F)) Wk (Proc.devRef .tc main_v3) = val_main_v3 (F := F) x1 := by
  dsimp only [hostOps0]
  after_results_simp
  finish_results_rw
  rw [h1]
  rfl
set_option maxHeartbeats 4000000 in
/-- After the first stretch: destination endpoints. -/
theorem p0_v6 (x1 : (⟨S2x1600000, .i32⟩ : BufTy).Contents (Elt F)) (h1 : Wk (Proc.devRef .tc main_arg1) = x1) :
    StableHlo.after (hostOps0 (F := F)) Wk (Proc.devRef .tc main_v6) = val_main_v6 (F := F) x1 := by
  dsimp only [hostOps0]
  after_results_simp
  finish_results_rw
  rw [h1]
  rfl
set_option maxHeartbeats 4000000 in
/-- After the first stretch: where the in-degree (a scatter-add of ones at the destinations) is positive. -/
theorem p0_v12 (x1 : (⟨S2x1600000, .i32⟩ : BufTy).Contents (Elt F)) (h1 : Wk (Proc.devRef .tc main_arg1) = x1) :
    StableHlo.after (hostOps0 (F := F)) Wk (Proc.devRef .tc main_v12) = val_main_v13 (F := F) x1 := by
  dsimp only [hostOps0]
  after_results_simp
  finish_results_rw
  rw [h1]
  rfl
set_option maxHeartbeats 4000000 in
/-- After the first stretch: the inverse square root of the in-degree. -/
theorem p0_v13 (x1 : (⟨S2x1600000, .i32⟩ : BufTy).Contents (Elt F)) (h1 : Wk (Proc.devRef .tc main_arg1) = x1) :
    StableHlo.after (hostOps0 (F := F)) Wk (Proc.devRef .tc main_v13) = val_main_v14 (F := F) x1 := by
  dsimp only [hostOps0]
  after_results_simp
  finish_results_rw
  rw [h1]
  rfl
set_option maxHeartbeats 4000000 in
/-- After the first stretch: the zero that stands where the degree is not positive. -/
theorem p0_cst2 :
    StableHlo.after (hostOps0 (F := F)) Wk (Proc.devRef .tc main_cst_2) = val_main_cst_2 (F := F) := by
  dsimp only [hostOps0]
  after_results_simp
  rfl

set_option maxHeartbeats 4000000 in
/-- The selection between the two, from contents that hold its three operands. -/
theorem p1_v14 (x1 : (⟨S2x1600000, .i32⟩ : BufTy).Contents (Elt F))
    (h12 : Wk (Proc.devRef .tc main_v12) = val_main_v13 (F := F) x1)
    (h13 : Wk (Proc.devRef .tc main_v13) = val_main_v14 (F := F) x1)
    (hc : Wk (Proc.devRef .tc main_cst_2) = val_main_cst_2 (F := F)) :
    StableHlo.after (hostOps0_1 (F := F)) Wk (Proc.devRef .tc main_v14) = val_main_v15 (F := F) x1 := by
  dsimp only [hostOps0_1]
  after_results_simp
  rw [h12, h13, hc]
  rfl
set_option maxHeartbeats 4000000 in
theorem p1_keep_v3 : StableHlo.after (hostOps0_1 (F := F)) Wk (Proc.devRef .tc main_v3) = Wk (Proc.devRef .tc main_v3) := by
  dsimp only [hostOps0_1]; after_results_simp
set_option maxHeartbeats 4000000 in
theorem p1_keep_v6 : StableHlo.after (hostOps0_1 (F := F)) Wk (Proc.devRef .tc main_v6) = Wk (Proc.devRef .tc main_v6) := by
  dsimp only [hostOps0_1]; after_results_simp

set_option maxHeartbeats 4000000 in
/-- The weights: that value gathered at each edge's source times the same at its destination. -/
theorem p2_v29 (x1 : (⟨S2x1600000, .i32⟩ : BufTy).Contents (Elt F))
    (h14 : Wk (Proc.devRef .tc main_v14) = val_main_v15 (F := F) x1)
    (h3 : Wk (Proc.devRef .tc main_v3) = val_main_v3 (F := F) x1)
    (h6 : Wk (Proc.devRef .tc main_v6) = val_main_v6 (F := F) x1) :
    StableHlo.after (hostOps0_2 (F := F)) Wk (Proc.devRef .tc main_v29) = val_main_v30 (F := F) x1 := by
  dsimp only [hostOps0_2]
  after_results_simp
  rw [h14, h3, h6]
  rfl

/-- The edge weights: inverse-square-root degree at the source times the same at the destination. -/
theorem pre_v29 (x1 : (⟨S2x1600000, .i32⟩ : BufTy).Contents (Elt F)) (h1 : Wk (Proc.devRef .tc main_arg1) = x1) :
    pre Wk (Proc.devRef .tc main_v29) = val_main_v30 (F := F) x1 :=
  p2_v29 _ x1
    (p1_v14 _ x1 (p0_v12 Wk x1 h1) (p0_v13 Wk x1 h1) (p0_cst2 Wk))
    ((p1_keep_v3 _).trans (p0_v3 Wk x1 h1))
    ((p1_keep_v6 _).trans (p0_v6 Wk x1 h1))

set_option maxHeartbeats 4000000 in
theorem pre_keep_arg0 : pre Wk (Proc.devRef .tc main_arg0) = Wk (Proc.devRef .tc main_arg0) := by
  dsimp only [pre, hostOps0, hostOps0_1, hostOps0_2]; after_results_simp
set_option maxHeartbeats 4000000 in
theorem pre_keep_arg2 : pre Wk (Proc.devRef .tc main_arg2) = Wk (Proc.devRef .tc main_arg2) := by
  dsimp only [pre, hostOps0, hostOps0_1, hostOps0_2]; after_results_simp
set_option maxHeartbeats 4000000 in
theorem pre_keep_arg3 : pre Wk (Proc.devRef .tc main_arg3) = Wk (Proc.devRef .tc main_arg3) := by
  dsimp only [pre, hostOps0, hostOps0_1, hostOps0_2]; after_results_simp
set_option maxHeartbeats 4000000 in
theorem pre_keep_arg4 : pre Wk (Proc.devRef .tc main_arg4) = Wk (Proc.devRef .tc main_arg4) := by
  dsimp only [pre, hostOps0, hostOps0_1, hostOps0_2]; after_results_simp
set_option maxHeartbeats 4000000 in
theorem pre_keep_arg5 : pre Wk (Proc.devRef .tc main_arg5) = Wk (Proc.devRef .tc main_arg5) := by
  dsimp only [pre, hostOps0, hostOps0_1, hostOps0_2]; after_results_simp

end Cert.KernelIdeal.HostRead

end
-- ==== Proof.HostMid.lean ====
/-
  The host operations between the first dense layer and the activation, read back.

  From any buffer contents in which the first layer's product, the two edge-endpoint vectors and the edge weights
  hold the reference's corresponding stages, the stretch leaves the weighted neighbour sum of the product's rows at
  the reference's stage for it (a gather of source rows, scaled edge by edge, scatter-added at the destinations), and
  the bias as a one-row matrix. The buffers later stretches read are left as they were.
-/
import proofs.«182111_j12240656794220_1_alg».proof.Proof.Gen.KernelIdeal.Frame
import proofs.«182111_j12240656794220_1_alg».proof.Proof.RefRead
import Idealize.ShloMosaic.Lib.StableHlo.Run

set_option maxRecDepth 16384

noncomputable section

namespace Cert.KernelIdeal.HostRead

open Cert.KernelIdeal Cert.KernelIdeal.Gen Cert.ReferenceIdeal.ReadP
open Idealize.ShloMosaic Idealize.ShloMosaic.TcCoe Idealize.SL.Sem Idealize.ShloMosaic.StableHlo

variable {F : FTy → Type} [FloatOps F]

variable (Wk : Valuation τ sig (Elt F))

set_option maxHeartbeats 2000000 in
/-- The neighbour sum of layer one, as the reference computes it from the same product, endpoints and weights. -/
theorem mid_v43 (x0 : (⟨S100000x128, .f32⟩ : BufTy).Contents (Elt F)) (x1 : (⟨S2x1600000, .i32⟩ : BufTy).Contents (Elt F)) (x2 : (⟨S128x64, .f32⟩ : BufTy).Contents (Elt F))
    (h30 : Wk (Proc.devRef .tc main_v30) = val_main_v7 (F := F) x0 x2)
    (h3 : Wk (Proc.devRef .tc main_v3) = val_main_v3 (F := F) x1)
    (h6 : Wk (Proc.devRef .tc main_v6) = val_main_v6 (F := F) x1)
    (h29 : Wk (Proc.devRef .tc main_v29) = val_main_v30 (F := F) x1) :
    StableHlo.after (hostOps1 (F := F)) Wk (Proc.devRef .tc main_v43) = val_main_v43 (F := F) x0 x1 x2 := by
  dsimp only [hostOps1]
  after_results_simp
  rw [h30, h3, h6, h29]
  rfl

set_option maxHeartbeats 2000000 in
/-- The bias vector laid out as a one-row matrix. -/
theorem mid_v44 (x3 : (⟨S64, .f32⟩ : BufTy).Contents (Elt F)) (h : Wk (Proc.devRef .tc main_arg3) = x3) :
    StableHlo.after (hostOps1 (F := F)) Wk (Proc.devRef .tc main_v44) = shapeCast S1x64 x3 shapeCasts_S64_S1x64 := by
  dsimp only [hostOps1]
  after_results_simp
  rw [h]
  rfl

set_option maxHeartbeats 2000000 in
theorem mid_keep_v3 : StableHlo.after (hostOps1 (F := F)) Wk (Proc.devRef .tc main_v3) = Wk (Proc.devRef .tc main_v3) := by
  dsimp only [hostOps1]; after_results_simp
set_option maxHeartbeats 2000000 in
theorem mid_keep_v6 : StableHlo.after (hostOps1 (F := F)) Wk (Proc.devRef .tc main_v6) = Wk (Proc.devRef .tc main_v6) := by
  dsimp only [hostOps1]; after_results_simp
set_option maxHeartbeats 2000000 in
theorem mid_keep_v29 : StableHlo.after (hostOps1 (F := F)) Wk (Proc.devRef .tc main_v29) = Wk (Proc.devRef .tc main_v29) := by
  dsimp only [hostOps1]; after_results_simp
set_option maxHeartbeats 2000000 in
theorem mid_keep_arg4 : StableHlo.after (hostOps1 (F := F)) Wk (Proc.devRef .tc main_arg4) = Wk (Proc.devRef .tc main_arg4) := by
  dsimp only [hostOps1]; after_results_simp
set_option maxHeartbeats 2000000 in
theorem mid_keep_arg5 : StableHlo.after (hostOps1 (F := F)) Wk (Proc.devRef .tc main_arg5) = Wk (Proc.devRef .tc main_arg5) := by
  dsimp only [hostOps1]; after_results_simp

end Cert.KernelIdeal.HostRead

end
-- ==== Proof.HostTail.lean ====
/-
  The host operations after the second dense layer, read back.

  From any buffer contents in which the second layer's product, the two edge-endpoint vectors and the edge weights
  hold the reference's corresponding stages, the stretch ends with the result buffer at the reference's last stage:
  the weighted neighbour sum of the product's rows plus the output bias on every row.
-/
import proofs.«182111_j12240656794220_1_alg».proof.Proof.Gen.KernelIdeal.Frame
import proofs.«182111_j12240656794220_1_alg».proof.Proof.RefRead
import Idealize.ShloMosaic.Lib.StableHlo.Run

set_option maxRecDepth 16384

noncomputable section

namespace Cert.KernelIdeal.HostRead

open Cert.KernelIdeal Cert.KernelIdeal.Gen Cert.ReferenceIdeal.ReadP
open Idealize.ShloMosaic Idealize.ShloMosaic.TcCoe Idealize.SL.Sem Idealize.ShloMosaic.StableHlo

variable {F : FTy → Type} [FloatOps F]

variable (Wk : Valuation τ sig (Elt F))

set_option maxHeartbeats 2000000 in
/-- The result: the neighbour sum of layer two plus the bias, as the reference computes it. -/
theorem tail_v62 (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64x16, .f32⟩ : BufTy).Contents (Elt F)) (x5 : (⟨S16, .f32⟩ : BufTy).Contents (Elt F))
    (h46 : Wk (Proc.devRef .tc main_v46) = val_main_v48 (F := F) x0 x1 x2 x3 x4)
    (h3 : Wk (Proc.devRef .tc main_v3) = val_main_v3 (F := F) x1)
    (h6 : Wk (Proc.devRef .tc main_v6) = val_main_v6 (F := F) x1)
    (h29 : Wk (Proc.devRef .tc main_v29) = val_main_v71 (F := F) x1)
    (h5 : Wk (Proc.devRef .tc main_arg5) = x5) :
    StableHlo.after (hostOps3 (F := F)) Wk (Proc.devRef .tc main_v62) = val_main_v87 (F := F) x0 x1 x2 x3 x4 x5 := by
  dsimp only [hostOps3]
  after_results_simp
  rw [h46, h3, h6, h29, h5]
  rfl

end Cert.KernelIdeal.HostRead

end
-- ==== Proof.Spec.lean ====
/-
  The two whole-array functions the three pipelined regions compute, on the extended reals.

  A dense layer is rows against columns: entry (r, c) of the product of an M×K matrix with a K×N matrix is the sum
  over k of x (r, k) · w (k, c). The activation stage adds one row of biases to every row of a matrix and clips the
  sum below at zero. Both are stated index by index over literal extents, so that a block of rows of the result is
  visibly the same function of the corresponding block of rows of the left operand.
-/
import Idealize.ShloMosaic.PureOps.Ideal
import Idealize.ShloMosaic.Lib.ValueIdx

noncomputable section

namespace Cert.Spec

open Idealize.ShloMosaic Idealize.ShloMosaic.ValueIdx

/-- Rows of `x` against columns of `w`: entry (r, c) is the sum over k of x (r, k) · w (k, c). -/
def mm (M K N : Nat) (x : (⟨2, ![M, K]⟩ : Shape).Idx → EReal) (w : (⟨2, ![K, N]⟩ : Shape).Idx → EReal) :
    (⟨2, ![M, N]⟩ : Shape).Idx → EReal :=
  fun j => ∑ k : Fin K, x (ix2 (j 0) k) * w (ix2 k (j 1))

/-- The one-row matrix `b` added to every row of `h`, the sum clipped below at the float zero. -/
def biasRelu (M N : Nat) (h : (⟨2, ![M, N]⟩ : Shape).Idx → EReal) (b : (⟨2, ![1, N]⟩ : Shape).Idx → EReal) :
    (⟨2, ![M, N]⟩ : Shape).Idx → EReal :=
  fun j => max (h j + b (ix2 (0 : Fin 1) (j 1))) (FloatOps.ofBits (F := Ideal) .f32 0x00000000#32)

end Cert.Spec

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.RegionMM.lean ====
/-
  The two dense layers of the graph convolution, block by block and then as whole arrays.

  Each layer multiplies a tall matrix (100000 rows) by a small one. The rows are cut into ten blocks of 10000; at
  grid point t the body receives block t of the left operand and the whole right operand, rounds both to a narrower
  format (no change on the extended reals), and multiplies them into a zero accumulator. Row r of a product depends
  only on row r of the left operand, so what point t leaves is rows 10000 t ... 10000 t + 9999 of the whole product:
  block t of ONE function of the two arrays. The ten row blocks fill the result array (row r sits in block
  r / 10000), hence the array after the region is that function.
-/
import proofs.«182111_j12240656794220_1_alg».proof.Proof.Gen.KernelIdeal.Frame
import proofs.«182111_j12240656794220_1_alg».proof.Proof.Spec
import proofs.«182111_j12240656794220_1_alg».proof.Proof.LibPlainDot
import Idealize.ShloMosaic.Lib.Pipeline.Value
import Idealize.ShloMosaic.Lib.ValueIdx
import Idealize.ShloMosaic.PureOps.Ideal.Laws

noncomputable section

namespace Cert.KernelIdeal.RegionMM

open Cert.KernelIdeal Cert.KernelIdeal.Gen Idealize.ShloMosaic Idealize.ShloMosaic.TcCoe Idealize.SL.Sem
open Idealize.ShloMosaic.ValueIdx
open Idealize.ShloMosaic.Pipeline (Dat)

/-- The two zero offsets of a whole-buffer access, as a constant function. -/
theorem zero_offsets : (![0, 0] : Fin 2 → Nat) = fun _ => 0 := funext fun a => by fin_cases a <;> rfl

/-! ## A block of rows of a product

The body's left operand x is a block of M rows of the tall matrix A, starting at row r; its right operand w is the
whole small matrix B. Rounding to the narrower format is the identity on the extended reals, and a product into the
zero accumulator is the sum over the contracted axis, so entry j of the block product is entry (r + j 0, j 1) of A · B. -/

/-- The body's product of two loaded blocks, at an index: rows of the left against columns of the right. -/
theorem block_product_apply (M K N : Nat) (x : FVec Ideal (⟨2, ![M, K]⟩ : Shape) .f32) (w : FVec Ideal (⟨2, ![K, N]⟩ : Shape) .f32)
    (j : (⟨2, ![M, N]⟩ : Shape).Idx) :
    FloatOps.matmul (DotDims.plain M K N) none (truncf (F := Ideal) .bf16 x bitsLt_bf16_f32)
        (truncf (F := Ideal) .bf16 w bitsLt_bf16_f32) (constant (⟨2, ![M, N]⟩ : Shape) .f32 0x00000000#32) j
      = ∑ k : Fin K, x (ix2 (j 0) k) * w (ix2 k (j 1)) :=
  Cert.PlainDot.matmul_zero_apply M K N (φ₁ := .bf16) (φ₂ := .bf16) none _ _ j

/-- A block of rows of the product is the product of that block of rows: if x holds rows r, r + 1, ... of A and w is
    B, the sum for entry j of the block is the sum for entry i = (r + j 0, j 1) of the whole product. -/
theorem rows_of_product (T M K N : Nat) (x : (⟨2, ![M, K]⟩ : Shape).Idx → EReal) (w : (⟨2, ![K, N]⟩ : Shape).Idx → EReal)
    (A : (⟨2, ![T, K]⟩ : Shape).Idx → EReal) (B : (⟨2, ![K, N]⟩ : Shape).Idx → EReal) (r : Nat)
    (hx : ∀ (y : (⟨2, ![M, K]⟩ : Shape).Idx) (k : (⟨2, ![T, K]⟩ : Shape).Idx),
      (k 0).val = r + (y 0).val → (k 1).val = (y 1).val → x y = A k)
    (hw : ∀ y, w y = B y)
    (j : (⟨2, ![M, N]⟩ : Shape).Idx) (i : (⟨2, ![T, N]⟩ : Shape).Idx)
    (hi0 : (i 0).val = r + (j 0).val) (hi1 : (i 1).val = (j 1).val) :
    (∑ k : Fin K, x (ix2 (j 0) k) * w (ix2 k (j 1))) = Cert.Spec.mm T K N A B i := by
  unfold Cert.Spec.mm
  refine Finset.sum_congr rfl fun k _ => ?_
  have e1 : (ix2 k (j 1) : (⟨2, ![K, N]⟩ : Shape).Idx) = ix2 k (i 1) := by
    have : (j 1 : Fin N) = (i 1 : Fin N) := Fin.ext hi1.symm
    exact congrArg (ix2 k) this
  rw [hx (ix2 (j 0) k) (ix2 (i 0) k) hi0 rfl, hw, e1]
  rfl

/-! ## The first layer: rows of x against the columns of W1 -/

section Layer1

variable (V : (c : Dev nD) → (b : Ref sig .tc) → Buf (Elt Ideal) ((c : Thread nD τ).loc b))

/-- The body's result is the product of its two loaded blocks, read at an index. -/
theorem layer1_payload_apply (x : Vec Ideal S10000x128 .f32) (w : Vec Ideal S128x64 .f32) (j : S10000x64.Idx) :
    k0_pay1 (F := Ideal) x w j = ∑ k : Fin 128, x (ix2 (j 0) k) * w (ix2 k (j 1)) := by
  unfold k0_pay1
  exact block_product_apply 10000 128 64 x w j

/-- Where the blocks sit, decided over the ten grid points: at point t the left operand's and the result's block
    index is (t, 0), the right operand's is (0, 0). -/
theorem layer1_block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block of the result is some grid point's. -/
theorem layer1_block_onto : ∀ q : Fin 10, ∃ t : Fin cfg0.N, win0_2.index t = ![q.val, 0] :=
  (by decide +kernel : ∀ q : Fin 10, ∃ t : Fin grid0.N, win0_2.index t = ![q.val, 0])

/-- The left operand's block at point t is rows 10000 t, ..., 10000 t + 9999 of x. -/
theorem layer1_left_block (c : Dev nD) (t : Fin cfg0.N) (y : S10000x128.Idx) (k : S100000x128.Idx)
    (hk0 : (k 0).val = 10000 * t.val + (y 0).val) (hk1 : (k 1).val = (y 1).val) :
    (iblk0 (F := Ideal) V c 0 t : Vec Ideal S10000x128 .f32) y = (V c main_arg0 : S100000x128.Idx → EReal) k := by
  obtain ⟨e0, e1, -⟩ := layer1_block_indices t
  unfold iblk0
  rw [View.read_apply]
  show V c main_arg0 _ = V c main_arg0 _
  congr 1
  funext a
  apply Fin.ext
  match a with
  | ⟨0, _⟩ => show win0_0.index t (0 : Fin 2) * 10000 + 1 * (y 0).val = (k 0).val; rw [e0, hk0]; omega
  | ⟨1, _⟩ => show win0_0.index t (1 : Fin 2) * 128 + 1 * (y 1).val = (k 1).val; rw [e1, hk1]; omega

/-- The right operand's block at every point is the whole of W1. -/
theorem layer1_right_block (c : Dev nD) (t : Fin cfg0.N) (y : S128x64.Idx) :
    (iblk0 (F := Ideal) V c 1 t : Vec Ideal S128x64 .f32) y = (V c main_arg2 : S128x64.Idx → EReal) y := by
  obtain ⟨-, -, e2, e3, -⟩ := layer1_block_indices t
  unfold iblk0
  rw [View.read_apply]
  show V c main_arg2 _ = V c main_arg2 _
  congr 1
  funext a
  apply Fin.ext
  match a with
  | ⟨0, _⟩ => show win0_1.index t (0 : Fin 2) * 128 + 1 * (y 0).val = (y 0).val; rw [e2]; omega
  | ⟨1, _⟩ => show win0_1.index t (1 : Fin 2) * 64 + 1 * (y 1).val = (y 1).val; rw [e3]; omega

end Layer1

section Layer1Array

variable (V : (c : Dev nD) → (b : Ref sig .tc) → Buf (Elt Ideal) ((c : Thread nD τ).loc b))

/-- What point t writes back is block t of the whole product: the body multiplies rows 10000 t, ... of x by W1, and
    those are the same rows of x · W1. -/
theorem layer1_flushed (c : Dev nD) (t : Fin cfg0.N) :
    (dat0 (F := Ideal) V c).flushed 2 t
      = ((cfg0.win 2).blk t).view.read (Elt Ideal) (Cert.Spec.mm 100000 128 64 (V c main_arg0) (V c main_arg2)) := by
  show (cfg0.win 2).cut (grid0.coords t) ((dat0 (F := Ideal) V c).after 2 t) = _
  rw [after0_2]
  unfold out0_2
  rw [View.canon_unit_zero zero_offsets]
  simp only [View.ld_unit_zero (S := S10000x128) zero_offsets, View.ld_unit_zero (S := S128x64) zero_offsets]
  obtain ⟨-, -, -, -, e4, e5⟩ := layer1_block_indices t
  funext j
  refine (layer1_payload_apply _ _ _).trans ?_
  refine rows_of_product 100000 10000 128 64 _ _ _ _ (10000 * t.val)
    (fun y k h0 h1 => layer1_left_block V c t y k h0 h1) (fun y => layer1_right_block V c t y) _ _ ?_ ?_
  · show win0_2.index t (0 : Fin 2) * 10000 + 1 * (j 0).val = 10000 * t.val + (j 0).val
    rw [e4]; omega
  · show win0_2.index t (1 : Fin 2) * 64 + 1 * (j 1).val = (j 1).val
    rw [e5]; omega

/-- An index of the result array is in point t's block iff each coordinate is in the block's range on its axis. -/
theorem layer1_mem_block (t : Fin cfg0.N) (i : S100000x64.Idx) :
    i ∈ ((cfg0.win 2).blk t).view.set
      ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- The ten row blocks fill the result: row r is in block r / 10000. -/
theorem layer1_cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := layer1_block_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [layer1_mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The array the first layer leaves is x · W1. -/
theorem region0_val (c : Dev nD) :
    (dat0 (F := Ideal) V c).arrAt 2 cfg0.N = Cert.Spec.mm 100000 128 64 (V c main_arg0) (V c main_arg2) :=
  (dat0 (F := Ideal) V c).arrAt_eq_of_cover 2 (Cert.Spec.mm 100000 128 64 (V c main_arg0) (V c main_arg2))
    (fun t _ => layer1_flushed V c t) layer1_cover

end Layer1Array

/-! ## The second layer: rows of the activations against the columns of W2 -/

section Layer2

variable (V : (c : Dev nD) → (b : Ref sig .tc) → Buf (Elt Ideal) ((c : Thread nD τ).loc b))

/-- The body's result is the product of its two loaded blocks, read at an index (recasting a block to its own shape
    changes nothing). -/
theorem layer2_payload_apply (x : Vec Ideal S10000x64 .f32) (w : Vec Ideal S64x16 .f32) (j : S10000x16.Idx) :
    k2_pay1 (F := Ideal) x w j = ∑ k : Fin 64, x (ix2 (j 0) k) * w (ix2 k (j 1)) := by
  unfold k2_pay1
  refine (block_product_apply 10000 64 16 _ w j).trans ?_
  exact congrArg (fun z : S10000x64.Idx → EReal => ∑ k : Fin 64, z (ix2 (j 0) k) * w (ix2 k (j 1)))
    (shapeCast_self x shapeCasts_S10000x64_S10000x64)

/-- Where the blocks sit, decided over the ten grid points: at point t the left operand's and the result's block
    index is (t, 0), the right operand's is (0, 0). -/
theorem layer2_block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every row block of the result is some grid point's. -/
theorem layer2_block_onto : ∀ q : Fin 10, ∃ t : Fin cfg2.N, win2_2.index t = ![q.val, 0] :=
  (by decide +kernel : ∀ q : Fin 10, ∃ t : Fin grid2.N, win2_2.index t = ![q.val, 0])

/-- The left operand's block at point t is rows 10000 t, ..., 10000 t + 9999 of the activations. -/
theorem layer2_left_block (c : Dev nD) (t : Fin cfg2.N) (y : S10000x64.Idx) (k : S100000x64.Idx)
    (hk0 : (k 0).val = 10000 * t.val + (y 0).val) (hk1 : (k 1).val = (y 1).val) :
    (iblk2 (F := Ideal) V c 0 t : Vec Ideal S10000x64 .f32) y = (V c main_v45 : S100000x64.Idx → EReal) k := by
  obtain ⟨e0, e1, -⟩ := layer2_block_indices t
  unfold iblk2
  rw [View.read_apply]
  show V c main_v45 _ = V c main_v45 _
  congr 1
  funext a
  apply Fin.ext
  match a with
  | ⟨0, _⟩ => show win2_0.index t (0 : Fin 2) * 10000 + 1 * (y 0).val = (k 0).val; rw [e0, hk0]; omega
  | ⟨1, _⟩ => show win2_0.index t (1 : Fin 2) * 64 + 1 * (y 1).val = (k 1).val; rw [e1, hk1]; omega

/-- The right operand's block at every point is the whole of W2. -/
theorem layer2_right_block (c : Dev nD) (t : Fin cfg2.N) (y : S64x16.Idx) :
    (iblk2 (F := Ideal) V c 1 t : Vec Ideal S64x16 .f32) y = (V c main_arg4 : S64x16.Idx → EReal) y := by
  obtain ⟨-, -, e2, e3, -⟩ := layer2_block_indices t
  unfold iblk2
  rw [View.read_apply]
  show V c main_arg4 _ = V c main_arg4 _
  congr 1
  funext a
  apply Fin.ext
  match a with
  | ⟨0, _⟩ => show win2_1.index t (0 : Fin 2) * 64 + 1 * (y 0).val = (y 0).val; rw [e2]; omega
  | ⟨1, _⟩ => show win2_1.index t (1 : Fin 2) * 16 + 1 * (y 1).val = (y 1).val; rw [e3]; omega

/-- What point t writes back is block t of the whole product: the body multiplies rows 10000 t, ... of the
    activations by W2, and those are the same rows of the whole product. -/
theorem layer2_flushed (c : Dev nD) (t : Fin cfg2.N) :
    (dat2 (F := Ideal) V c).flushed 2 t
      = ((cfg2.win 2).blk t).view.read (Elt Ideal) (Cert.Spec.mm 100000 64 16 (V c main_v45) (V c main_arg4)) := by
  show (cfg2.win 2).cut (grid2.coords t) ((dat2 (F := Ideal) V c).after 2 t) = _
  rw [after2_2]
  unfold out2_2
  rw [View.canon_unit_zero zero_offsets]
  simp only [View.ld_unit_zero (S := S10000x64) zero_offsets, View.ld_unit_zero (S := S64x16) zero_offsets]
  obtain ⟨-, -, -, -, e4, e5⟩ := layer2_block_indices t
  funext j
  refine (layer2_payload_apply _ _ _).trans ?_
  refine rows_of_product 100000 10000 64 16 _ _ _ _ (10000 * t.val)
    (fun y k h0 h1 => layer2_left_block V c t y k h0 h1) (fun y => layer2_right_block V c t y) _ _ ?_ ?_
  · show win2_2.index t (0 : Fin 2) * 10000 + 1 * (j 0).val = 10000 * t.val + (j 0).val
    rw [e4]; omega
  · show win2_2.index t (1 : Fin 2) * 16 + 1 * (j 1).val = (j 1).val
    rw [e5]; omega

/-- An index of the result array is in point t's block iff each coordinate is in the block's range on its axis. -/
theorem layer2_mem_block (t : Fin cfg2.N) (i : S100000x16.Idx) :
    i ∈ ((cfg2.win 2).blk t).view.set
      ↔ ∀ a : Fin 2, win2_2.index t a * S10000x16.size a ≤ (i a).val ∧ (i a).val < win2_2.index t a * S10000x16.size a + S10000x16.size a := by
  show i ∈ ((View.whole main_v46).slice (win2_2.rect t)).set ↔ _
  rw [View.set_slice_whole, Rect.mem_set_unit]
  exact Iff.rfl

/-- The ten row blocks fill the result: row r is in block r / 10000. -/
theorem layer2_cover (i : S100000x16.Idx) :
    ∃ t : Fin cfg2.N, (cfg2.win 2).flush t = true ∧ i ∈ ((cfg2.win 2).blk t).view.set := by
  have hi0 : (i 0).val < 100000 := (i 0).isLt
  have hi1 : (i 1).val < 16 := (i 1).isLt
  obtain ⟨t, ht⟩ := layer2_block_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [layer2_mem_block]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 16 ≤ (i 1).val ∧ (i 1).val < win2_2.index t (1 : Fin 2) * 16 + 16; omega

/-- The array the second layer leaves is the activations times W2. -/
theorem region2_val (c : Dev nD) :
    (dat2 (F := Ideal) V c).arrAt 2 cfg2.N = Cert.Spec.mm 100000 64 16 (V c main_v45) (V c main_arg4) :=
  (dat2 (F := Ideal) V c).arrAt_eq_of_cover 2 (Cert.Spec.mm 100000 64 16 (V c main_v45) (V c main_arg4))
    (fun t _ => layer2_flushed V c t) layer2_cover

end Layer2

end Cert.KernelIdeal.RegionMM

end
-- ==== Proof.RegionAct.lean ====
/-
  The activation stage as one whole-array function of what it finds.

  The stage works on a 100000 × 64 matrix h in ten blocks of 10000 consecutive rows; every block is processed with
  the same single row b of 64 biases. Entry (r, q) of the result is max (h (r, q) + b (0, q)) 0: it depends on
  entry (r, q) of h and on entry (0, q) of the bias row and on nothing else. Hence block t of the result is the same
  function of block t of h, the ten blocks of rows tile the matrix, and the array that is left at the end is that
  function of the whole matrix.
-/
import proofs.«182111_j12240656794220_1_alg».proof.Proof.Gen.KernelIdeal.Frame
import proofs.«182111_j12240656794220_1_alg».proof.Proof.Spec
import Idealize.ShloMosaic.Lib.Pipeline.Value
import Idealize.ShloMosaic.Lib.ValueIdx
import Idealize.ShloMosaic.Lib.ValueLayout
import Idealize.ShloMosaic.PureOps.Ideal

noncomputable section

namespace Cert.KernelIdeal.RegionAct

open Cert.KernelIdeal Cert.KernelIdeal.Gen Idealize.ShloMosaic Idealize.ShloMosaic.TcCoe Idealize.SL.Sem
open Idealize.ShloMosaic.ValueIdx
open Idealize.ShloMosaic.Pipeline (Dat)

/-- The corner (0, 0), from which every access of a whole block starts, is the all-zero offset. -/
theorem zero_offsets : (![0, 0] : Fin 2 → Nat) = fun _ => 0 := funext fun a => by fin_cases a <;> rfl

/-! ## One block: the arithmetic, entry by entry -/

/-- A cast of a shape to itself changes nothing, so what is computed on a block of rows `x0` and the bias row `x1`
    is: repeat the row down the 10000 rows, add, and take the maximum with the matrix that is zero everywhere. -/
theorem act_block (x0 : Vec Ideal S10000x64 .f32) (x1 : Vec Ideal S1x64 .f32) :
    k1_pay1 (F := Ideal) x0 x1
      = maximumf (addf x0 (broadcastTo S10000x64 x1 broadcasts_S1x64_S10000x64))
          (broadcast S10000x64 (Scalar.ofBits (F := Ideal) .f32 0x00000000#32)) := by
  unfold k1_pay1
  simp only [shapeCast_self]

/-- Entry (p, q) of that: the repeated row read at (p, q) is the row's entry (0, q) — its first axis has extent one,
    its second is kept —, the sum and the maximum are taken entry by entry, and the zero matrix reads the zero word. -/
theorem act_entry (x0 : Vec Ideal S10000x64 .f32) (x1 : Vec Ideal S1x64 .f32) (p : Fin 10000) (q : Fin 64) :
    k1_pay1 (F := Ideal) x0 x1 (ix2 p q)
      = max (x0 (ix2 p q) + x1 (ix2 (0 : Fin 1) q)) (FloatOps.ofBits (F := Ideal) .f32 0x00000000#32) := by
  rw [act_block, maximumf_apply, addf_apply, broadcast_apply,
    broadcastTo_apply x1 broadcasts_S1x64_S10000x64 (ix2 p q) (ix2 (0 : Fin 1) q)
      (fun a => by match a with | ⟨0, _⟩ => rfl | ⟨1, _⟩ => rfl)]

/-- The block law. Let the block `x0` at its entry `j` be the matrix `h` at `i`, and let the row `x1` in `j`'s column
    be the row `b` in `i`'s column. Then the block's result at `j` is the whole-matrix function of `h` and `b` at `i`:
    both are the maximum of the same sum with the same zero. -/
theorem act_of_rows (h : S100000x64.Idx → EReal) (b : S1x64.Idx → EReal)
    (x0 : Vec Ideal S10000x64 .f32) (x1 : Vec Ideal S1x64 .f32) (j : S10000x64.Idx) (i : S100000x64.Idx)
    (h0 : x0 j = h i) (h1 : x1 (ix2 (0 : Fin 1) (j 1)) = b (ix2 (0 : Fin 1) (i 1))) :
    k1_pay1 (F := Ideal) x0 x1 j = Cert.Spec.biasRelu 100000 64 h b i := by
  obtain ⟨p, q, rfl⟩ : ∃ (p : Fin 10000) (q : Fin 64), j = ix2 p q := ⟨j 0, j 1, eq_ix2 j⟩
  rw [act_entry, h0, h1]
  rfl

/-! ## Where the blocks sit -/

/-- Over the ten steps: the block of `h` that is read and the block of the result that is written have the same row
    index and column index 0; the bias row is always its one block (0, 0); the row index of the written block is at
    most 9. -/
theorem block_index : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) ≤ 9
    ∧ win1_2.index t (1 : Fin 2) = 0 :=
  (by decide +kernel : ∀ t : Fin grid1.N, _)

/-- Each of the ten blocks of rows of the result is written at some step. -/
theorem block_onto : ∀ (q0 : Fin 10), ∃ t : Fin cfg1.N, win1_2.index t = ![q0.val, 0] :=
  (by decide +kernel : ∀ (q0 : Fin 10), ∃ t : Fin grid1.N, win1_2.index t = ![q0.val, 0])

variable (V : (c : Dev nD) → (b : Ref sig .tc) → Buf (Elt Ideal) ((c : Thread nD τ).loc b))

/-! ## What a step writes back -/

/-- Step `t` writes back block `t` of the whole-matrix function of the matrix and the bias row as they are when the
    stage begins. Entry `j` of the written block sits in the result at row (block index) · 10000 + (row of `j`) and
    at `j`'s column; the block of `h` that was read has the same block index, so its entry `j` is `h` at that very
    place; and the bias row's one block is the whole row, read in `j`'s column. The block law joins the two sides. -/
theorem flushed_eq (c : Dev nD) (t : Fin cfg1.N) :
    (dat1 (F := Ideal) V c).flushed 2 t
      = ((cfg1.win 2).blk t).view.read (Elt Ideal) (Cert.Spec.biasRelu 100000 64 (V c main_v43) (V c main_v44)) := by
  show (cfg1.win 2).cut (grid1.coords t) ((dat1 V c).after 2 t) = _
  rw [after1_2]
  unfold out1_2
  rw [View.canon_unit_zero zero_offsets]
  simp only [View.ld_unit_zero (S := S10000x64) zero_offsets, View.ld_unit_zero (S := S1x64) zero_offsets]
  obtain ⟨e0, e1, e2, e3, e4, e5⟩ := block_index t
  funext j
  rw [View.read_apply]
  refine act_of_rows (V c main_v43) (V c main_v44) _ _ _ _ ?_ ?_
  · -- the block of h: same rows, same columns as the written block
    unfold iblk1
    rw [View.read_apply]
    refine congrArg (V c main_v43) (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  · -- the bias row: row 0, the written entry's column
    unfold iblk1
    rw [View.read_apply]
    refine congrArg (V c main_v44) (funext fun a => Fin.ext ?_)
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega

/-! ## The blocks tile the matrix -/

/-- An entry of the result lies in step `t`'s block iff, on each axis, its coordinate lies in the block's range:
    from (block index) · (block extent), for one block extent. -/
theorem mem_block (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v45).slice (win1_2.rect t)).set ↔ _
  rw [View.set_slice_whole, Rect.mem_set_unit]
  exact Iff.rfl

/-- Every entry (r, q) of the result is written back at some step: the step whose block of rows is number
    r / 10000, since 10000 · (r / 10000) ≤ r < 10000 · (r / 10000) + 10000, and every block spans all 64 columns. -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := block_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-! ## The whole array -/

/-- After the ten steps the result array is, entry by entry, the bias row added to every row of the matrix the stage
    found and the sum clipped below at zero: every step writes its block of that function, and the blocks cover the
    array. -/
theorem region1_val (c : Dev nD) :
    (dat1 (F := Ideal) V c).arrAt 2 cfg1.N = Cert.Spec.biasRelu 100000 64 (V c main_v43) (V c main_v44) :=
  (dat1 (F := Ideal) V c).arrAt_eq_of_cover 2 (Cert.Spec.biasRelu 100000 64 (V c main_v43) (V c main_v44))
    (fun t _ => flushed_eq V c t) covered

end Cert.KernelIdeal.RegionAct

end
-- ==== Proof.RefVal.lean ====
/-
  The reference's dense stages are the specification's functions.

  Its two matrix products are rows against columns; its activation adds the bias, broadcast along the rows, and clips
  at zero; and the edge weights it computes a second time for the second layer are the ones it computed for the first,
  operation for operation.
-/
import proofs.«182111_j12240656794220_1_alg».proof.Proof.RefRead
import proofs.«182111_j12240656794220_1_alg».proof.Proof.Spec

noncomputable section

namespace Cert.ReferenceIdeal.RefVal

open Cert.ReferenceIdeal Cert.ReferenceIdeal.ReadP
open Idealize.ShloMosaic Idealize.ShloMosaic.TcCoe Idealize.SL.Sem Idealize.ShloMosaic.ValueIdx

/-- The first layer's product, entry by entry: row `i 0` of the features against column `i 1` of the weights. -/
theorem ref_v7 (x0 : (⟨S100000x128, .f32⟩ : BufTy).Contents (Elt Ideal)) (x2 : (⟨S128x64, .f32⟩ : BufTy).Contents (Elt Ideal)) :
    val_main_v7 (F := Ideal) x0 x2 = Cert.Spec.mm 100000 128 64 x0 x2 := by
  funext i
  rw [val_main_v7_apply]
  unfold Cert.Spec.mm
  refine Finset.sum_congr rfl fun k _ => ?_
  have el : lidx_main_v7 i k = ix2 (i 0) k := funext fun a => Fin.ext (by
    match a with
    | ⟨0, _⟩ => rfl
    | ⟨1, _⟩ => rfl)
  have er : ridx_main_v7 i k = ix2 k (i 1) := funext fun a => Fin.ext (by
    match a with
    | ⟨0, _⟩ => rfl
    | ⟨1, _⟩ => rfl)
  rw [el, er]
  rfl

/-- The second layer's product, entry by entry, of the activated hidden features. -/
theorem ref_v48 (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal))
    (x4 : (⟨S64x16, .f32⟩ : BufTy).Contents (Elt Ideal)) :
    val_main_v48 (F := Ideal) x0 x1 x2 x3 x4 = Cert.Spec.mm 100000 64 16 (val_main_v47 (F := Ideal) x0 x1 x2 x3) x4 := by
  funext i
  rw [val_main_v48_apply]
  unfold Cert.Spec.mm
  refine Finset.sum_congr rfl fun k _ => ?_
  have el : lidx_main_v48 i k = ix2 (i 0) k := funext fun a => Fin.ext (by
    match a with
    | ⟨0, _⟩ => rfl
    | ⟨1, _⟩ => rfl)
  have er : ridx_main_v48 i k = ix2 k (i 1) := funext fun a => Fin.ext (by
    match a with
    | ⟨0, _⟩ => rfl
    | ⟨1, _⟩ => rfl)
  rw [el, er]
  rfl

/-- The activation: the neighbour sum plus the bias of its column, clipped below at zero; `b` is the bias laid out as
    a one-row matrix, however that row was made. -/
theorem ref_v47 (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal))
    (b : (⟨2, ![1, 64]⟩ : Shape).Idx → EReal) (hb : ∀ q : Fin 64, b (ix2 (0 : Fin 1) q) = x3 (ix1 q)) :
    val_main_v47 (F := Ideal) x0 x1 x2 x3 = Cert.Spec.biasRelu 100000 64 (val_main_v43 (F := Ideal) x0 x1 x2) b := by
  funext j
  rw [val_main_v47_apply, val_main_v46_apply, val_main_v45_apply, val_main_v44_apply]
  unfold Cert.Spec.biasRelu
  rw [hb (j 1)]
  have e : idx_main_v44 (idx_main_v45 j) = ix1 (j 1) := funext fun a => Fin.ext (by
    match a with
    | ⟨0, _⟩ => rfl)
  rw [e]
  rfl

/-- The second layer's edge weights are the first layer's: the same operations of the same edge index. -/
theorem ref_norm_twice (x1 : (⟨S2x1600000, .i32⟩ : BufTy).Contents (Elt Ideal)) :
    val_main_v71 (F := Ideal) x1 = val_main_v30 (F := Ideal) x1 := rfl

end Cert.ReferenceIdeal.RefVal

end
-- ==== Proof.Chain.lean ====
/-
  The idealized kernel's result is the reference's last stage of the launch arguments.

  The buffer contents are followed boundary by boundary. Before the first region the edge endpoints and edge weights
  are the reference's stages of the edge index. The first region leaves the product of the features with the first
  weights (rows against columns, block of rows by block of rows), which is the reference's first product. The next
  stretch forms the weighted neighbour sum as the reference does. The activation region leaves that sum plus the bias
  clipped at zero, the reference's hidden features; the third region their product with the second weights. The last
  stretch forms the second neighbour sum and adds the output bias, from the edge weights computed once, which are the
  weights the reference computes again.
-/
import proofs.«182111_j12240656794220_1_alg».proof.Proof.HostPrefix
import proofs.«182111_j12240656794220_1_alg».proof.Proof.HostMid
import proofs.«182111_j12240656794220_1_alg».proof.Proof.HostTail
import proofs.«182111_j12240656794220_1_alg».proof.Proof.RegionMM
import proofs.«182111_j12240656794220_1_alg».proof.Proof.RegionAct
import proofs.«182111_j12240656794220_1_alg».proof.Proof.RefVal
import Idealize.ShloMosaic.Lib.Pipeline.Value

set_option maxRecDepth 16384

noncomputable section

namespace Cert.KernelIdeal.Chain

open Cert.KernelIdeal Cert.KernelIdeal.Gen Cert.KernelIdeal.HostRead Cert.ReferenceIdeal.ReadP
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- The launch contents of the six arguments. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)

/-! ## At the first region's entry -/

theorem e3_v3 : W3 m ρ c (Proc.devRef .tc main_v3) = val_main_v3 (F := Ideal) (a1 m c) := pre_v3 (W0 m ρ c) (a1 m c) rfl
theorem e3_v6 : W3 m ρ c (Proc.devRef .tc main_v6) = val_main_v6 (F := Ideal) (a1 m c) := pre_v6 (W0 m ρ c) (a1 m c) rfl
theorem e3_v29 : W3 m ρ c (Proc.devRef .tc main_v29) = val_main_v30 (F := Ideal) (a1 m c) := pre_v29 (W0 m ρ c) (a1 m c) rfl
theorem e3_arg0 : W3 m ρ c (Proc.devRef .tc main_arg0) = a0 m c := pre_keep_arg0 (W0 m ρ c)
theorem e3_arg2 : W3 m ρ c (Proc.devRef .tc main_arg2) = a2 m c := pre_keep_arg2 (W0 m ρ c)
theorem e3_arg3 : W3 m ρ c (Proc.devRef .tc main_arg3) = a3 m c := pre_keep_arg3 (W0 m ρ c)
theorem e3_arg4 : W3 m ρ c (Proc.devRef .tc main_arg4) = a4 m c := pre_keep_arg4 (W0 m ρ c)
theorem e3_arg5 : W3 m ρ c (Proc.devRef .tc main_arg5) = a5 m c := pre_keep_arg5 (W0 m ρ c)

/-! ## After the first region: the first layer's product -/

theorem e4_v30 : W4 m ρ c (Proc.devRef .tc main_v30) = val_main_v7 (F := Ideal) (a0 m c) (a2 m c) := by
  refine (W4_arr m ρ c 2).trans ((Cert.KernelIdeal.RegionMM.region0_val (V3 m ρ) c).trans ?_)
  have h0 : V3 m ρ c main_arg0 = a0 m c := e3_arg0 m ρ c
  have h2 : V3 m ρ c main_arg2 = a2 m c := e3_arg2 m ρ c
  rw [h0, h2]
  exact (Cert.ReferenceIdeal.RefVal.ref_v7 _ _).symm
theorem e4_v3 : W4 m ρ c (Proc.devRef .tc main_v3) = val_main_v3 (F := Ideal) (a1 m c) :=
  (W4_of_ne m ρ c main_v3 (by decide)).trans (e3_v3 m ρ c)
theorem e4_v6 : W4 m ρ c (Proc.devRef .tc main_v6) = val_main_v6 (F := Ideal) (a1 m c) :=
  (W4_of_ne m ρ c main_v6 (by decide)).trans (e3_v6 m ρ c)
theorem e4_v29 : W4 m ρ c (Proc.devRef .tc main_v29) = val_main_v30 (F := Ideal) (a1 m c) :=
  (W4_of_ne m ρ c main_v29 (by decide)).trans (e3_v29 m ρ c)
theorem e4_arg3 : W4 m ρ c (Proc.devRef .tc main_arg3) = a3 m c := (W4_of_ne m ρ c main_arg3 (by decide)).trans (e3_arg3 m ρ c)
theorem e4_arg4 : W4 m ρ c (Proc.devRef .tc main_arg4) = a4 m c := (W4_of_ne m ρ c main_arg4 (by decide)).trans (e3_arg4 m ρ c)
theorem e4_arg5 : W4 m ρ c (Proc.devRef .tc main_arg5) = a5 m c := (W4_of_ne m ρ c main_arg5 (by decide)).trans (e3_arg5 m ρ c)

/-! ## At the activation region's entry: the first neighbour sum and the bias row -/

theorem e5_v43 : W5 m ρ c (Proc.devRef .tc main_v43) = val_main_v43 (F := Ideal) (a0 m c) (a1 m c) (a2 m c) :=
  mid_v43 (W4 m ρ c) _ _ _ (e4_v30 m ρ c) (e4_v3 m ρ c) (e4_v6 m ρ c) (e4_v29 m ρ c)
theorem e5_v44 : W5 m ρ c (Proc.devRef .tc main_v44) = shapeCast S1x64 (a3 m c) shapeCasts_S64_S1x64 :=
  mid_v44 (W4 m ρ c) _ (e4_arg3 m ρ c)
theorem e5_v3 : W5 m ρ c (Proc.devRef .tc main_v3) = val_main_v3 (F := Ideal) (a1 m c) := (mid_keep_v3 (W4 m ρ c)).trans (e4_v3 m ρ c)
theorem e5_v6 : W5 m ρ c (Proc.devRef .tc main_v6) = val_main_v6 (F := Ideal) (a1 m c) := (mid_keep_v6 (W4 m ρ c)).trans (e4_v6 m ρ c)
theorem e5_v29 : W5 m ρ c (Proc.devRef .tc main_v29) = val_main_v30 (F := Ideal) (a1 m c) := (mid_keep_v29 (W4 m ρ c)).trans (e4_v29 m ρ c)
theorem e5_arg4 : W5 m ρ c (Proc.devRef .tc main_arg4) = a4 m c := (mid_keep_arg4 (W4 m ρ c)).trans (e4_arg4 m ρ c)
theorem e5_arg5 : W5 m ρ c (Proc.devRef .tc main_arg5) = a5 m c := (mid_keep_arg5 (W4 m ρ c)).trans (e4_arg5 m ρ c)

/-- The bias vector as a one-row matrix holds the vector's entries along its row. -/
theorem bias_row (x3 : (⟨S64, .f32⟩ : BufTy).Contents (Elt Ideal)) (q : Fin 64) :
    shapeCast S1x64 x3 shapeCasts_S64_S1x64 (ix2 (0 : Fin 1) q) = x3 (ix1 q) := by
  refine (shapeCast_addUnit_apply (n := 1) ![64] x3 shapeCasts_S64_S1x64 (ix2 (0 : Fin 1) q)).trans ?_
  congr 1
  funext a
  match a with
  | ⟨0, _⟩ => rfl

/-! ## After the activation region: the hidden features -/

theorem e6_v45 : W6 m ρ c (Proc.devRef .tc main_v45) = val_main_v47 (F := Ideal) (a0 m c) (a1 m c) (a2 m c) (a3 m c) := by
  refine (W6_arr m ρ c 2).trans ((Cert.KernelIdeal.RegionAct.region1_val (V5 m ρ) c).trans ?_)
  have h43 : V5 m ρ c main_v43 = val_main_v43 (F := Ideal) (a0 m c) (a1 m c) (a2 m c) := e5_v43 m ρ c
  have h44 : V5 m ρ c main_v44 = shapeCast S1x64 (a3 m c) shapeCasts_S64_S1x64 := e5_v44 m ρ c
  rw [h43, h44]
  exact (Cert.ReferenceIdeal.RefVal.ref_v47 _ _ _ _ _ (bias_row (a3 m c))).symm
theorem e6_v3 : W6 m ρ c (Proc.devRef .tc main_v3) = val_main_v3 (F := Ideal) (a1 m c) := (W6_of_ne m ρ c main_v3 (by decide)).trans (e5_v3 m ρ c)
theorem e6_v6 : W6 m ρ c (Proc.devRef .tc main_v6) = val_main_v6 (F := Ideal) (a1 m c) := (W6_of_ne m ρ c main_v6 (by decide)).trans (e5_v6 m ρ c)
theorem e6_v29 : W6 m ρ c (Proc.devRef .tc main_v29) = val_main_v30 (F := Ideal) (a1 m c) := (W6_of_ne m ρ c main_v29 (by decide)).trans (e5_v29 m ρ c)
theorem e6_arg4 : W6 m ρ c (Proc.devRef .tc main_arg4) = a4 m c := (W6_of_ne m ρ c main_arg4 (by decide)).trans (e5_arg4 m ρ c)
theorem e6_arg5 : W6 m ρ c (Proc.devRef .tc main_arg5) = a5 m c := (W6_of_ne m ρ c main_arg5 (by decide)).trans (e5_arg5 m ρ c)

/-! ## After the third region: the second layer's product -/

theorem e7_v46 : W7 m ρ c (Proc.devRef .tc main_v46) = val_main_v48 (F := Ideal) (a0 m c) (a1 m c) (a2 m c) (a3 m c) (a4 m c) := by
  refine (W7_arr m ρ c 2).trans ((Cert.KernelIdeal.RegionMM.region2_val (V6 m ρ) c).trans ?_)
  have h45 : V6 m ρ c main_v45 = val_main_v47 (F := Ideal) (a0 m c) (a1 m c) (a2 m c) (a3 m c) := e6_v45 m ρ c
  have h4 : V6 m ρ c main_arg4 = a4 m c := e6_arg4 m ρ c
  rw [h45, h4]
  exact (Cert.ReferenceIdeal.RefVal.ref_v48 _ _ _ _ _).symm
theorem e7_v3 : W7 m ρ c (Proc.devRef .tc main_v3) = val_main_v3 (F := Ideal) (a1 m c) := (W7_of_ne m ρ c main_v3 (by decide)).trans (e6_v3 m ρ c)
theorem e7_v6 : W7 m ρ c (Proc.devRef .tc main_v6) = val_main_v6 (F := Ideal) (a1 m c) := (W7_of_ne m ρ c main_v6 (by decide)).trans (e6_v6 m ρ c)
theorem e7_v29 : W7 m ρ c (Proc.devRef .tc main_v29) = val_main_v30 (F := Ideal) (a1 m c) := (W7_of_ne m ρ c main_v29 (by decide)).trans (e6_v29 m ρ c)
theorem e7_arg5 : W7 m ρ c (Proc.devRef .tc main_arg5) = a5 m c := (W7_of_ne m ρ c main_arg5 (by decide)).trans (e6_arg5 m ρ c)

/-! ## The result -/

/-- The result buffer at the last boundary is the reference's last stage of the launch arguments. -/
theorem result : W8 m ρ c (Proc.devRef .tc main_v62)
    = val_main_v87 (F := Ideal) (a0 m c) (a1 m c) (a2 m c) (a3 m c) (a4 m c) (a5 m c) :=
  tail_v62 (W7 m ρ c) _ _ _ _ _ _ (e7_v46 m ρ c) (e7_v3 m ρ c) (e7_v6 m ρ c)
    ((e7_v29 m ρ c).trans (Cert.ReferenceIdeal.RefVal.ref_norm_twice _).symm) (e7_arg5 m ρ c)

end Cert.KernelIdeal.Chain

end
-- ==== Proof.lean ====
/-
  A two-layer graph convolution, tiled dense stages against a plain reference: the claims.

  Both programs compute out = Â · relu(Â · (x · W1) + b1) · W2 + b2 over 100000 nodes, where Â · y is the neighbour sum
  of the rows of y over the edges with a self-loop at every node, each edge weighted by the inverse square roots of
  the in-degrees of its two endpoints (zero where the degree is zero). The kernel runs the two dense products and the
  bias-and-clip stage as pipelined regions over ten blocks of 10000 rows, casting the product's operands to a narrower
  float format; the gathers and scatter-adds are host operations in both programs. On the extended reals a change of
  float format is the identity and a matrix-unit product into a zero accumulator is the plain sum over the contracted
  axis, and a block of rows of either product, or of the bias-and-clip stage, depends only on the same block of rows
  of its left operand: so each region leaves the whole-array function the reference applies (Proof/RegionMM,
  Proof/RegionAct over Proof/Spec; Proof/RefVal for the reference's side). Every host stretch is, operation for
  operation, a stretch of the reference (Proof/HostPrefix, Proof/HostMid, Proof/HostTail), the kernel computing the edge
  weights once where the reference computes them once per layer. Proof/Chain follows the buffer contents through the
  eight segments to the reference's last stage; Proof/RunVal is the kernel's run with the result named. No law that
  needs finite operands is used: the precondition is never opened.
-/
import proofs.«182111_j12240656794220_1_alg».proof.Defs
import proofs.«182111_j12240656794220_1_alg».proof.Proof.Gen.Kernel
import proofs.«182111_j12240656794220_1_alg».proof.Proof.Gen.Kernel.Frame
import proofs.«182111_j12240656794220_1_alg».proof.Proof.Gen.KernelIdeal
import proofs.«182111_j12240656794220_1_alg».proof.Proof.Gen.KernelIdeal.Frame
import proofs.«182111_j12240656794220_1_alg».proof.Proof.Gen.ReferenceIdeal
import proofs.«182111_j12240656794220_1_alg».proof.Proof.Gen.Pre_finite_inputs
import proofs.«182111_j12240656794220_1_alg».proof.Proof.RefRead
import proofs.«182111_j12240656794220_1_alg».proof.Proof.RunVal
import proofs.«182111_j12240656794220_1_alg».proof.Proof.Chain
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation: there is nothing to preserve. -/
theorem preserves : Cert.preserves_Kernel_KernelIdeal := trivial

/-- From memories agreeing on the arguments both programs end with the reference's last stage of those arguments in
    their result buffers. -/
theorem algebraic : Cert.algebraic_KernelIdeal_ReferenceIdeal := by
  intro m ρ m' ρ' _ hagree
  refine ⟨fun c => Cert.ReferenceIdeal.ReadP.val_main_v87 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Chain.result m ρ c), (h c).2⟩)
      (Cert.KernelIdeal.RunVal.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v87_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
